-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) (main_arg2 : FVec F S8192x1024 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 34
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1024x8192, .bf16⟩
  | .hbm, ⟨27, _⟩ => ⟨S8192x1, .i32⟩
  | .hbm, ⟨28, _⟩ => ⟨S1x8192, .i32⟩
  | .hbm, ⟨29, _⟩ => ⟨S8192x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bitsLt_bf16_f32 : FTy.bits .bf16 < FTy.bits .f32
  transposes_S8192x1024_S1024x8192_1_0 : S8192x1024.Transposes [1, 0] S1024x8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x8192.size a
  hwx0_1 : ∀ i : grid0.Coords, EltTy.bits .bf16 = 32 ∨ (Rect.block (s := S1024x8192) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1024x8192, .f32⟩
  | .hbm, ⟨25, _⟩ => ⟨S8192x8192, .f32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .i1⟩
  | .hbm, ⟨34, _⟩ => ⟨S8192x8192, .i1⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .i1⟩
  | .hbm, ⟨39, _⟩ => ⟨S8192x8192, .i1⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .i1⟩
  | .hbm, ⟨56, _⟩ => ⟨S8192, .i1⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_c : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_cst_12 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.Spec.lean ====
/-
  The specification of the contrastive loss, over the extended reals, with no program in sight.

  For n = 8192 embeddings of dimension d = 1024 each side, with class labels `a` (of the "column" side) and `b` (of the
  "row" side): rows are L2-normalised (`normed`: x / sqrt(sum x² + eps)), `sim i j` is the inner product of normalised
  row `i` of the first array and normalised row `j` of the second, a pair (i, j) is a positive when the labels agree and
  `sim < 0.99999`, a negative when they differ and `sim > 0.5`; a positive contributes `1 - sim`, a negative `sim`.
  Row `i`'s loss is the sum of its contributions when the row has a positive at all, else zero, and the result is the
  mean of the row losses.

  Two spellings of a row's loss are stated: `rowRef` (sum of the positive contributions plus sum of the negative ones,
  gated by "some pair of the row is a positive") and `rowKer` (eight column tiles of 1024 accumulated first to last from
  zero, the positive and negative contribution of each pair added before the sum, gated by "the accumulated positive
  contributions exceed zero"). Proof/RowLaw.lean proves them equal.
-/
import Idealize.ShloMosaic.PureOps.Ideal
import Idealize.ShloMosaic.PureOps.Reduce
import Idealize.ShloMosaic.Lib.ValueIdx

noncomputable section

open scoped BigOperators

namespace Cert.Contrastive

open Idealize.ShloMosaic Idealize.ShloMosaic.ValueIdx

/-! ## The literals, as the extended reals their f32 patterns denote -/

/-- `+0.0`. -/
abbrev zeroC : EReal := Ideal.ofBits .f32 0x00000000#32
/-- `1.0`. -/
abbrev oneC : EReal := Ideal.ofBits .f32 0x3F800000#32
/-- The f32 nearest `1 - 1e-5`: the positives' threshold. -/
abbrev posThr : EReal := Ideal.ofBits .f32 0x3F7FFF58#32
/-- `0.5`: the negatives' margin. -/
abbrev negThr : EReal := Ideal.ofBits .f32 0x3F000000#32
/-- The f32 nearest `1e-12`: the normalisation's epsilon. -/
abbrev epsC : EReal := Ideal.ofBits .f32 0x2B8CBCCC#32
/-- `8192.0`: the number of rows. -/
abbrev rowsC : EReal := Ideal.ofBits .f32 0x46000000#32

/-! ## Normalised rows and the similarity -/

/-- An [8192, 1024] array with every row divided by `sqrt (0 + sum of its squares + eps)`. -/
def normed (x : (⟨2, ![8192, 1024]⟩ : Shape).Idx → EReal) : (⟨2, ![8192, 1024]⟩ : Shape).Idx → EReal := fun p =>
  Ideal.div (x p) (Ideal.sqrt ((zeroC + ∑ k : Fin 1024, x (ix2 (p 0) k) * x (ix2 (p 0) k)) + epsC))

/-- The inner product of row `i` of `A` and row `j` of `B`. -/
def simOf (A B : (⟨2, ![8192, 1024]⟩ : Shape).Idx → EReal) (i j : Fin 8192) : EReal :=
  ∑ k : Fin 1024, A (ix2 i k) * B (ix2 j k)

/-- Whether row `i`'s label on the first side is row `j`'s on the second. -/
def sameOf (a b : (⟨1, ![8192]⟩ : Shape).Idx → BitVec 32) (i j : Fin 8192) : BitVec 1 :=
  IntOp.cmpi .eq (a (ix1 i)) (b (ix1 j))

/-! ## Contributions of a pair -/

section Row
variable (s : Fin 8192 → Fin 8192 → EReal) (e : Fin 8192 → Fin 8192 → BitVec 1)

/-- The pair is a positive: same label and similarity below the threshold. -/
def posMask (i j : Fin 8192) : BitVec 1 := IntOp.andi (e i j) (Ideal.cmp .olt (s i j) posThr)
/-- The pair is a negative: different labels and similarity above the margin. -/
def negMask (i j : Fin 8192) : BitVec 1 := IntOp.andi (~~~(e i j)) (Ideal.cmp .ogt (s i j) negThr)
/-- A positive contributes `1 - sim`, anything else zero. -/
def posC (i j : Fin 8192) : EReal := Scalar.select (posMask s e i j) (oneC - s i j) zeroC
/-- A negative contributes `sim`, anything else zero. -/
def negC (i j : Fin 8192) : EReal := Scalar.select (negMask s e i j) (s i j) zeroC

/-! ## A row's loss, two ways -/

/-- The reference's row loss: the two sums added, kept when some pair of the row is a positive. -/
def rowRef (i : Fin 8192) : EReal :=
  Scalar.select ((Finset.univ : Finset (Fin 8192)).fold IntOp.ori 0#1 (fun j => posMask s e i j))
    ((zeroC + ∑ j : Fin 8192, posC s e i j) + (zeroC + ∑ j : Fin 8192, negC s e i j)) zeroC

/-- Column `jj` of column tile `g`. -/
def col (g : Fin 8) (jj : Fin 1024) : Fin 8192 := ⟨1024 * g.val + jj.val, by have := g.isLt; have := jj.isLt; omega⟩

/-- Column tile `g`'s share of row `i`'s loss: each pair's two contributions added, then summed over the tile;
    zero for a tile number past the last. -/
def tileL (i : Fin 8192) (g : ℕ) : EReal :=
  if h : g < 8 then ∑ jj : Fin 1024, (posC s e i (col ⟨g, h⟩ jj) + negC s e i (col ⟨g, h⟩ jj)) else 0
/-- Column tile `g`'s share of row `i`'s positive contributions. -/
def tileP (i : Fin 8192) (g : ℕ) : EReal :=
  if h : g < 8 then ∑ jj : Fin 1024, posC s e i (col ⟨g, h⟩ jj) else 0

/-- The loss accumulator after `n` column tiles: from zero, tile after tile. -/
def accL (i : Fin 8192) : ℕ → EReal
  | 0 => zeroC
  | n + 1 => accL i n + tileL s e i n
/-- The positives' accumulator after `n` column tiles. -/
def accP (i : Fin 8192) : ℕ → EReal
  | 0 => zeroC
  | n + 1 => accP i n + tileP s e i n

/-- The kernel's row loss: the accumulated loss, kept when the accumulated positive contributions exceed zero. -/
def rowKer (i : Fin 8192) : EReal :=
  Scalar.select (Ideal.cmp .ogt (accP s e i 8) zeroC) (accL s e i 8) zeroC

end Row

/-! ## The result -/

/-- The mean of the row losses: `(0 + sum) / 8192`. -/
def meanOf (row : Fin 8192 → EReal) : EReal := Ideal.div (zeroC + ∑ i : Fin 8192, row i) rowsC

end Cert.Contrastive

end
-- ==== Proof.RowLaw.lean ====
/-
  The two spellings of a row's loss agree.

  Three facts carry the proof.
  * The literals: the zero pattern denotes 0, the pattern of one denotes 1, and the positives' threshold denotes the
    real number 16777048 / 2^24, which is below 1.
  * The eight column tiles of 1024 columns partition the 8192 columns (column jj of tile g is column 1024 g + jj), so
    accumulating the tiles' sums first to last from zero gives the sum over all columns; and a sum of sums of two
    terms is the sum of the two sums (the extended reals are a commutative additive monoid: no finiteness is needed).
  * A pair's positive contribution is never negative, and it exceeds zero exactly when the pair is a positive: then the
    similarity is below the threshold, hence below one, so one minus it exceeds zero (it is the top element when the
    similarity is the bottom one). A finite sum of non-negative extended reals exceeds zero exactly when one of its
    terms does; and the bitwise-or of one-bit masks is set exactly when one of them is. So the two gates agree.
-/
import proofs.«178529_j10222022165007_2_alg».proof.Proof.Spec
import Idealize.ShloMosaic.PureOps.Ideal.Laws
import Mathlib.Data.EReal.Operations
import Mathlib.Algebra.Order.BigOperators.Group.Finset
import Mathlib.Algebra.BigOperators.Fin
import Mathlib.Data.Fintype.BigOperators

open scoped BigOperators

namespace Cert.Contrastive

open Idealize.ShloMosaic

/-! ## The literals -/

/-- The zero pattern denotes zero. -/
theorem zeroC_eq : zeroC = 0 := Ideal.ofBits_zero_f32

/-- Sign 0, exponent 127, fraction 0: `2^23 · 2^(-23) = 1`. -/
theorem oneC_eq : oneC = 1 := by
  simp [Ideal.ofBits, Ideal.ieee]
  rw [← EReal.coe_mul, ← EReal.coe_one]
  congr 1
  norm_num

/-- Sign 0, exponent 126, fraction 8388440: `(2^23 + 8388440) · 2^(-24)`. -/
theorem posThr_eq : posThr = ((16777048 / 16777216 : ℝ) : EReal) := by
  simp [Ideal.ofBits, Ideal.ieee]
  rw [← EReal.coe_mul]
  congr 1
  norm_num

/-- The positives' threshold is below one. -/
theorem posThr_lt_oneC : posThr < oneC := by
  rw [posThr_eq, oneC_eq, ← EReal.coe_one, EReal.coe_lt_coe_iff]
  norm_num

/-! ## One-bit masks and the selection -/

theorem select_of_eq {α : Type} {c : BitVec 1} (h : c = 1#1) (a b : α) : Scalar.select c a b = a := by
  subst h; simp [Scalar.select]

theorem select_of_ne {α : Type} {c : BitVec 1} (h : c ≠ 1#1) (a b : α) : Scalar.select c a b = b := by
  unfold Scalar.select
  exact if_neg h

/-- A selection depends on its condition only through whether it is set. -/
theorem select_congr {α : Type} {c c' : BitVec 1} (h : c = 1#1 ↔ c' = 1#1) (a b : α) :
    Scalar.select c a b = Scalar.select c' a b := by
  by_cases hc : c = 1#1
  · rw [select_of_eq hc, select_of_eq (h.mp hc)]
  · rw [select_of_ne hc, select_of_ne (fun hc' => hc (h.mpr hc'))]

theorem and_eq_one_iff (a b : BitVec 1) : IntOp.andi a b = 1#1 ↔ a = 1#1 ∧ b = 1#1 := by
  unfold IntOp.andi
  revert a b
  decide

theorem or_eq_one_iff (a b : BitVec 1) : IntOp.ori a b = 1#1 ↔ a = 1#1 ∨ b = 1#1 := by
  unfold IntOp.ori
  revert a b
  decide

theorem ofBool_eq_one_iff (p : Bool) : BitVec.ofBool p = 1#1 ↔ p = true := by
  cases p <;> decide

/-- The bitwise-or of one-bit masks over a finite set, from the clear mask, is set exactly when one of them is. -/
theorem fold_ori_eq_one_iff {ι : Type} [DecidableEq ι] (S : Finset ι) (f : ι → BitVec 1) :
    S.fold IntOp.ori 0#1 f = 1#1 ↔ ∃ j ∈ S, f j = 1#1 := by
  induction S using Finset.induction_on with
  | empty => simp
  | insert a S ha ih =>
    rw [Finset.fold_insert ha, or_eq_one_iff, ih]
    simp [Finset.mem_insert]

/-! ## The contributions -/

section Row
variable (s : Fin 8192 → Fin 8192 → EReal) (e : Fin 8192 → Fin 8192 → BitVec 1)

/-- A positive pair's similarity is below the threshold. -/
theorem lt_posThr_of_posMask {i j : Fin 8192} (h : posMask s e i j = 1#1) : s i j < posThr := by
  unfold posMask at h
  rw [and_eq_one_iff] at h
  have h2 := h.2
  unfold Ideal.cmp at h2
  rw [ofBool_eq_one_iff] at h2
  exact of_decide_eq_true h2

/-- A positive pair contributes more than zero. -/
theorem posC_pos_of_posMask {i j : Fin 8192} (h : posMask s e i j = 1#1) : 0 < posC s e i j := by
  unfold posC
  rw [select_of_eq h, EReal.sub_pos]
  exact lt_trans (lt_posThr_of_posMask s e h) posThr_lt_oneC

/-- Any other pair contributes zero. -/
theorem posC_eq_zero_of_not_posMask {i j : Fin 8192} (h : posMask s e i j ≠ 1#1) : posC s e i j = 0 := by
  unfold posC
  rw [select_of_ne h, zeroC_eq]

theorem posC_nonneg (i j : Fin 8192) : 0 ≤ posC s e i j := by
  by_cases h : posMask s e i j = 1#1
  · exact (posC_pos_of_posMask s e h).le
  · exact (posC_eq_zero_of_not_posMask s e h).ge

theorem posC_pos_iff (i j : Fin 8192) : 0 < posC s e i j ↔ posMask s e i j = 1#1 := by
  constructor
  · intro h
    by_contra hn
    rw [posC_eq_zero_of_not_posMask s e hn] at h
    exact lt_irrefl _ h
  · exact posC_pos_of_posMask s e

/-- The row's positive contributions sum to more than zero exactly when the row has a positive. -/
theorem sum_posC_pos_iff (i : Fin 8192) :
    0 < ∑ j : Fin 8192, posC s e i j ↔ ∃ j : Fin 8192, posMask s e i j = 1#1 := by
  rw [Finset.sum_pos_iff_of_nonneg (fun j _ => posC_nonneg s e i j)]
  simp [posC_pos_iff]

/-! ## The eight tiles partition the columns -/

/-- Tile and column-in-tile to column is a bijection. -/
theorem col_bijective : Function.Bijective (fun p : Fin 8 × Fin 1024 => col p.1 p.2) := by
  rw [Fintype.bijective_iff_injective_and_card]
  refine ⟨?_, by simp⟩
  rintro ⟨g, jj⟩ ⟨g', jj'⟩ h
  have hg := g.isLt
  have hg' := g'.isLt
  have hj := jj.isLt
  have hj' := jj'.isLt
  simp only [col, Fin.mk.injEq] at h
  have h1 : g.val = g'.val := by omega
  have h2 : jj.val = jj'.val := by omega
  exact Prod.ext (Fin.ext h1) (Fin.ext h2)

/-- A sum over all columns is the sum over the tiles of the sums over each tile's columns. -/
theorem sum_tiles (F : Fin 8192 → EReal) :
    ∑ g : Fin 8, ∑ jj : Fin 1024, F (col g jj) = ∑ j : Fin 8192, F j := by
  rw [← Fintype.sum_prod_type (f := fun p : Fin 8 × Fin 1024 => F (col p.1 p.2))]
  exact col_bijective.sum_comp F

theorem accL_eq_range (i : Fin 8192) (n : ℕ) :
    accL s e i n = zeroC + ∑ g ∈ Finset.range n, tileL s e i g := by
  induction n with
  | zero => simp [accL]
  | succ n ih => rw [accL, ih, Finset.sum_range_succ, add_assoc]

theorem accP_eq_range (i : Fin 8192) (n : ℕ) :
    accP s e i n = zeroC + ∑ g ∈ Finset.range n, tileP s e i g := by
  induction n with
  | zero => simp [accP]
  | succ n ih => rw [accP, ih, Finset.sum_range_succ, add_assoc]

theorem tileL_fin (i : Fin 8192) (g : Fin 8) :
    tileL s e i g.val = ∑ jj : Fin 1024, (posC s e i (col g jj) + negC s e i (col g jj)) := by
  unfold tileL
  rw [dif_pos g.isLt]

theorem tileP_fin (i : Fin 8192) (g : Fin 8) :
    tileP s e i g.val = ∑ jj : Fin 1024, posC s e i (col g jj) := by
  unfold tileP
  rw [dif_pos g.isLt]

/-- The loss accumulator after all eight tiles is the sum over all columns. -/
theorem accL_eight (i : Fin 8192) :
    accL s e i 8 = ∑ j : Fin 8192, (posC s e i j + negC s e i j) := by
  rw [accL_eq_range, zeroC_eq, zero_add, ← Fin.sum_univ_eq_sum_range (fun g => tileL s e i g) 8]
  simp only [tileL_fin]
  exact sum_tiles (fun j => posC s e i j + negC s e i j)

/-- The positives' accumulator after all eight tiles is the sum over all columns. -/
theorem accP_eight (i : Fin 8192) :
    accP s e i 8 = ∑ j : Fin 8192, posC s e i j := by
  rw [accP_eq_range, zeroC_eq, zero_add, ← Fin.sum_univ_eq_sum_range (fun g => tileP s e i g) 8]
  simp only [tileP_fin]
  exact sum_tiles (fun j => posC s e i j)

/-! ## The two spellings agree -/

theorem rowKer_eq_rowRef (i : Fin 8192) : rowKer s e i = rowRef s e i := by
  unfold rowKer rowRef
  rw [accL_eight, accP_eight, Finset.sum_add_distrib, zeroC_eq, zero_add, zero_add]
  apply select_congr
  unfold Ideal.cmp
  rw [ofBool_eq_one_iff, decide_eq_true_iff, sum_posC_pos_iff, fold_ori_eq_one_iff]
  simp

end Row

end Cert.Contrastive
-- ==== Proof.Pieces.lean ====
/-
  What one grid point leaves behind, as values. The grid is 8 row tiles by 8 column tiles, the column tile moving
  fastest. At a point the body multiplies its row tile of the first normalised array by its column tile of the second,
  turns the 1024 x 1024 similarities into the pairs' contributions, and adds each row's sum over the tile to two
  per-row accumulators kept across the row tile's eight points: the loss (positive plus negative contributions) and
  the positive contributions alone. At a row tile's first point the accumulators start from zero; at its last the
  output block is the loss accumulator where the positives' accumulator exceeds zero, and zero elsewhere.
  Here each of those stored blocks is read back as the payload that was stored, a pure function of the point's four
  input blocks and of what the accumulators held before the point.
-/
import proofs.«178529_j10222022165007_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Tile

open Cert.KernelIdeal Cert.KernelIdeal.Gen

variable {F : FTy → Type} [FloatOps F]

theorem hz : (![0, 0] : Fin 2 → Nat) = fun _ => 0 := funext fun a => by fin_cases a <;> rfl

/-- The loss accumulator after a point: what it held plus each row's sum, over the point's column tile, of the pairs'
    positive and negative contributions. -/
def stepL (x0 : Vec F S1024x1024 .bf16) (x1 : Vec F S1024x1024 .bf16) (x2 : Vec F S1024x1 .i32) (x3 : Vec F S1x1024 .i32) (acc : Vec F S1024x1 .f32) : Vec F S1024x1 .f32 :=
  k0_pay1 (k0_pay9 x0 x1 x2 x3 acc)

/-- The positives' accumulator after a point: what it held plus each row's sum of the positive contributions. -/
def stepP (x0 : Vec F S1024x1024 .bf16) (x1 : Vec F S1024x1024 .bf16) (x2 : Vec F S1024x1 .i32) (x3 : Vec F S1x1024 .i32) (acc : Vec F S1024x1 .f32) : Vec F S1024x1 .f32 :=
  k0_pay2 (k0_pay8 x0 x1 x2 x3) acc

/-- At a row tile's first point the loss accumulator is stepped from the zero block. -/
theorem first_loss (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1024 .bf16) (x1 : Vec F S1024x1024 .bf16) (x2 : Vec F S1024x1 .i32) (x3 : Vec F S1x1024 .i32) :
    sout0_A_0 c i arg2 harg2 arg3 harg3 arg4 harg4 arg5 harg5 arg6 harg6 arg7 harg7 arg8 harg8 hc0 hc1 x0 x1 x2 x3 = stepL x0 x1 x2 x3 (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a row tile's first point the positives' accumulator is stepped from the zero block. -/
theorem first_pos (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i) (x0 : Vec F S1024x1024 .bf16) (x1 : Vec F S1024x1024 .bf16) (x2 : Vec F S1024x1 .i32) (x3 : Vec F S1x1024 .i32) :
    sout0_A_1 c i arg2 harg2 arg3 harg3 arg4 harg4 arg5 harg5 arg6 harg6 arg7 harg7 arg8 harg8 hc0 hc1 x0 x1 x2 x3 = stepP x0 x1 x2 x3 (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a middle point the loss accumulator is stepped from what the point before left. -/
theorem middle_loss (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1024 .bf16) (x1 : Vec F S1024x1024 .bf16) (x2 : Vec F S1024x1 .i32) (x3 : Vec F S1x1024 .i32) (xs0 : Vec F S1024x1 .f32) (xs1 : Vec F S1024x1 .f32) :
    sout0_B_0 c i arg2 harg2 arg3 harg3 arg4 harg4 arg5 harg5 arg6 harg6 arg7 harg7 arg8 harg8 hc0 hc1 x0 x1 x2 x3 xs0 xs1 = stepL x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a middle point the positives' accumulator is stepped from what the point before left. -/
theorem middle_pos (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i) (x0 : Vec F S1024x1024 .bf16) (x1 : Vec F S1024x1024 .bf16) (x2 : Vec F S1024x1 .i32) (x3 : Vec F S1x1024 .i32) (xs0 : Vec F S1024x1 .f32) (xs1 : Vec F S1024x1 .f32) :
    sout0_B_1 c i arg2 harg2 arg3 harg3 arg4 harg4 arg5 harg5 arg6 harg6 arg7 harg7 arg8 harg8 hc0 hc1 x0 x1 x2 x3 xs0 xs1 = stepP x0 x1 x2 x3 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a row tile's last point the loss accumulator is stepped as at a middle point. -/
theorem last_loss (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1024x1024 .bf16) (x2 : Vec F S1024x1 .i32) (x3 : Vec F S1x1024 .i32) (xs0 : Vec F S1024x1 .f32) (xs1 : Vec F S1024x1 .f32) :
    sout0_C_0 c i arg2 harg2 arg3 harg3 arg4 harg4 arg5 harg5 arg6 harg6 arg7 harg7 arg8 harg8 hc0 hc1 x0 x1 x2 x3 xs0 xs1 = stepL x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a row tile's last point the positives' accumulator is stepped as at a middle point. -/
theorem last_pos (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1024x1024 .bf16) (x2 : Vec F S1024x1 .i32) (x3 : Vec F S1x1024 .i32) (xs0 : Vec F S1024x1 .f32) (xs1 : Vec F S1024x1 .f32) :
    sout0_C_1 c i arg2 harg2 arg3 harg3 arg4 harg4 arg5 harg5 arg6 harg6 arg7 harg7 arg8 harg8 hc0 hc1 x0 x1 x2 x3 xs0 xs1 = stepP x0 x1 x2 x3 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz]
  rfl

/-- At a row tile's last point the output block is the gated loss: the two accumulators as just stepped, the loss kept
    where the positives' accumulator exceeds zero. -/
theorem last_out (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i) (x0 : Vec F S1024x1024 .bf16) (x1 : Vec F S1024x1024 .bf16) (x2 : Vec F S1024x1 .i32) (x3 : Vec F S1x1024 .i32) (xs0 : Vec F S1024x1 .f32) (xs1 : Vec F S1024x1 .f32) :
    out0_C_4 c i arg2 harg2 arg3 harg3 arg4 harg4 arg5 harg5 arg6 harg6 arg7 harg7 arg8 harg8 hc0 hc1 x0 x1 x2 x3 xs0 xs1 = k0_pay3 (stepP x0 x1 x2 x3 xs1) (stepL x0 x1 x2 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg7.read_unread, harg8.read_unread,
    View.ld_unit_zero (S := S1024x1024) hz, View.ld_unit_zero (S := S1024x1) hz, View.ld_unit_zero (S := S1x1024) hz,
    View.readCov_unit_zero (S := S1024x1) _ hz]
  rfl

end Cert.KernelIdeal.Tile

end
-- ==== Proof.Payload.lean ====
/-
  One grid point's arithmetic read element by element, over the extended reals. The point's four input blocks are a
  1024 x 1024 tile `x0` of the first normalised array (rows of the row tile), a 1024 x 1024 tile `x1` of the second one
  transposed (columns of the column tile), and the two label blocks `x2` (a column) and `x3` (a row). The matrix product
  into a zero accumulator is the inner product `simB`; the label comparison is `sameB`; the selects are the pairs'
  contributions `posB` and `negB`; and the lane sum kept as a column adds, to each row of an accumulator, the sum of
  the contributions over the tile's 1024 columns.
-/
import proofs.«178529_j10222022165007_2_alg».proof.Proof.Gen.KernelIdeal.Skeleton
import proofs.«178529_j10222022165007_2_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.TileValue

open Cert.KernelIdeal Cert.KernelIdeal.Gen Cert.Contrastive

/-- The tile product's dimension numbers: rows by contraction times contraction by columns. -/
abbrev DD : DotDims S1024x1024 S1024x1024 S1024x1024 := dot_S1024x1024_S1024x1024_S1024x1024_1_0_0_1_n_n

theorem lhs0 (i : S1024x1024.Idx) (q : DD.contr.Idx) : (DD.lhsIdx i q 0).val = (i 0).val := by
  unfold DotDims.lhsIdx
  rw [dif_neg (show ¬(0 : Fin S1024x1024.rank) ∈ DD.lhsBatch by decide), dif_pos (show (0 : Fin S1024x1024.rank) ∈ DD.lhsNonContracting by decide)]
  rfl
theorem lhs1 (i : S1024x1024.Idx) (q : DD.contr.Idx) : (DD.lhsIdx i q 1).val = (q ⟨0, by decide⟩).val :=
  DD.lhsIdx_val_of_single rfl i q
theorem rhs0 (i : S1024x1024.Idx) (q : DD.contr.Idx) : (DD.rhsIdx i q 0).val = (q ⟨0, by decide⟩).val :=
  DD.rhsIdx_val_of_single rfl i q
theorem rhs1 (i : S1024x1024.Idx) (q : DD.contr.Idx) : (DD.rhsIdx i q 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-! ## The block-level quantities -/

/-- Row `r` of the first tile against column `q` of the second: the inner product over the 1024 features. -/
def simB (x0 x1 : FVec Ideal S1024x1024 .bf16) (r q : Fin 1024) : EReal := ∑ k : Fin 1024, x0 (ix2 r k) * x1 (ix2 k q)
/-- Whether row `r`'s label is column `q`'s. -/
def sameB (x2 : IVec S1024x1 32) (x3 : IVec S1x1024 32) (r q : Fin 1024) : BitVec 1 := IntOp.cmpi .eq (x2 (ix2 r 0)) (x3 (ix2 0 q))
/-- The pair's positive contribution. -/
def posB (x0 x1 : FVec Ideal S1024x1024 .bf16) (x2 : IVec S1024x1 32) (x3 : IVec S1x1024 32) (r q : Fin 1024) : EReal :=
  Scalar.select (IntOp.andi (sameB x2 x3 r q) (Ideal.cmp .olt (simB x0 x1 r q) posThr)) (oneC - simB x0 x1 r q) zeroC
/-- The pair's negative contribution. -/
def negB (x0 x1 : FVec Ideal S1024x1024 .bf16) (x2 : IVec S1024x1 32) (x3 : IVec S1x1024 32) (r q : Fin 1024) : EReal :=
  Scalar.select (IntOp.andi (IntOp.xori (sameB x2 x3 r q) 1#1) (Ideal.cmp .ogt (simB x0 x1 r q) negThr)) (simB x0 x1 r q) zeroC

/-! ## The payloads at an index -/

/-- The matrix product into the zero accumulator is the inner product. -/
theorem sim_apply (x0 x1 : FVec Ideal S1024x1024 .bf16) (r q : Fin 1024) :
    k0_pay6 (F := Ideal) x0 x1 (ix2 r q) = simB x0 x1 r q := by
  unfold k0_pay6
  have e0 : shapeCast S1024x1024 x0 shapeCasts_S1024x1024_S1024x1024 = x0 := shapeCast_self _ _
  have e1 : shapeCast S1024x1024 x1 shapeCasts_S1024x1024_S1024x1024 = x1 := shapeCast_self _ _
  show FloatOps.matmul (F := Ideal) DD none (shapeCast S1024x1024 x0 shapeCasts_S1024x1024_S1024x1024)
    (shapeCast S1024x1024 x1 shapeCasts_S1024x1024_S1024x1024) (constant S1024x1024 .f32 0x00000000#32) (ix2 r q) = _
  rw [e0, e1]
  refine (Ideal.matmul_constant_zero_apply DD none x0 x1 (ix2 r q)).trans ?_
  unfold simB
  rw [← Equiv.sum_comp (contrEquiv1 DD 1024 rfl rfl).symm]
  refine Finset.sum_congr rfl fun k _ => ?_
  have hk := contrEquiv1_symm_val DD 1024 rfl rfl k
  have el : DD.lhsIdx (ix2 r q) ((contrEquiv1 DD 1024 rfl rfl).symm k) = ix2 r k := funext fun a => Fin.ext (by
    match a with
    | ⟨0, _⟩ => exact lhs0 _ _
    | ⟨1, _⟩ => exact (lhs1 _ _).trans hk)
  have er : DD.rhsIdx (ix2 r q) ((contrEquiv1 DD 1024 rfl rfl).symm k) = ix2 k q := funext fun a => Fin.ext (by
    match a with
    | ⟨0, _⟩ => exact (rhs0 _ _).trans hk
    | ⟨1, _⟩ => exact rhs1 _ _)
  rw [el, er]

/-- The label column broadcast along the lanes against the label row broadcast along the rows. -/
theorem same_apply (x2 : IVec S1024x1 32) (x3 : IVec S1x1024 32) (r q : Fin 1024) :
    k0_pay7 (F := Ideal) x2 x3 (ix2 r q) = sameB x2 x3 r q := by
  unfold k0_pay7
  have e2 : shapeCast S1024x1 x2 shapeCasts_S1024x1_S1024x1 = x2 := shapeCast_self _ _
  have e3 : shapeCast S1x1024 x3 shapeCasts_S1x1024_S1x1024 = x3 := shapeCast_self _ _
  show IntOp.cmpi .eq (broadcastTo S1024x1024 (shapeCast S1024x1 x2 shapeCasts_S1024x1_S1024x1) broadcasts_S1024x1_S1024x1024 (ix2 r q))
    (broadcastTo S1024x1024 (shapeCast S1x1024 x3 shapeCasts_S1x1024_S1x1024) broadcasts_S1x1024_S1024x1024 (ix2 r q)) = _
  rw [e2, e3]
  have b2 : broadcastTo S1024x1024 x2 broadcasts_S1024x1_S1024x1024 (ix2 r q) = x2 (ix2 r 0) :=
    broadcastTo_apply x2 broadcasts_S1024x1_S1024x1024 (ix2 r q) (ix2 r 0) (fun a => match a with
      | ⟨0, _⟩ => by show r.val = if (1024 : Nat) = 1 then 0 else r.val; rw [if_neg (by decide)]
      | ⟨1, _⟩ => by show 0 = if (1 : Nat) = 1 then 0 else q.val; rw [if_pos rfl])
  have b3 : broadcastTo S1024x1024 x3 broadcasts_S1x1024_S1024x1024 (ix2 r q) = x3 (ix2 0 q) :=
    broadcastTo_apply x3 broadcasts_S1x1024_S1024x1024 (ix2 r q) (ix2 0 q) (fun a => match a with
      | ⟨0, _⟩ => by show 0 = if (1 : Nat) = 1 then 0 else r.val; rw [if_pos rfl]
      | ⟨1, _⟩ => by show q.val = if (1024 : Nat) = 1 then 0 else q.val; rw [if_neg (by decide)])
  rw [b2, b3]
  rfl

/-- A positive's contribution. -/
theorem pos_apply (x0 x1 : FVec Ideal S1024x1024 .bf16) (x2 : IVec S1024x1 32) (x3 : IVec S1x1024 32) (r q : Fin 1024) :
    k0_pay8 (F := Ideal) x0 x1 x2 x3 (ix2 r q) = posB x0 x1 x2 x3 r q := by
  have h : k0_pay8 (F := Ideal) x0 x1 x2 x3 (ix2 r q)
      = Scalar.select (IntOp.andi (k0_pay7 (F := Ideal) x2 x3 (ix2 r q)) (Ideal.cmp .olt (k0_pay6 (F := Ideal) x0 x1 (ix2 r q)) posThr))
          (oneC - k0_pay6 (F := Ideal) x0 x1 (ix2 r q)) zeroC := rfl
  rw [h, sim_apply, same_apply]
  rfl

/-- The lane sum of a 1024 x 1024 tile, kept as a column: row `r`'s sum over the 1024 columns. -/
theorem colSum (v : FVec Ideal S1024x1024 .f32) (r : Fin 1024) :
    shapeCast S1024x1 (multiReduction .add [1] S1024 v 0x00000000#32 reduces_S1024x1024_S1024 (.inl rfl) rfl) shapeCasts_S1024_S1024x1 (ix2 r 0)
      = ∑ q : Fin 1024, v (ix2 r q) := by
  refine (shapeCast_apply _ shapeCasts_S1024_S1024x1 (ix2 r 0) (ix1 r) ?_).trans ?_
  · rw [Shape.rowMajor_val_one, Shape.rowMajor_val_two]
    show r.val = r.val * 1 + 0
    omega
  · refine (Ideal.multiReduction_add_single v 0x00000000#32 reduces_S1024x1024_S1024 (.inl rfl) rfl (ix1 r)).trans ?_
    refine Finset.sum_congr rfl fun q _ => congrArg v (funext fun a => Fin.ext (by
      match a with
      | ⟨0, _⟩ => rfl
      | ⟨1, _⟩ => rfl))

/-- The loss step: each row of the accumulator gains the row's contributions over the tile. -/
theorem loss_apply (x0 x1 : FVec Ideal S1024x1024 .bf16) (x2 : IVec S1024x1 32) (x3 : IVec S1x1024 32) (acc : FVec Ideal S1024x1 .f32) (r : Fin 1024) :
    k0_pay1 (F := Ideal) (k0_pay9 (F := Ideal) x0 x1 x2 x3 acc) (ix2 r 0)
      = acc (ix2 r 0) + ∑ q : Fin 1024, (posB x0 x1 x2 x3 r q + negB x0 x1 x2 x3 r q) := by
  have e1 : k0_pay1 (F := Ideal) (k0_pay9 (F := Ideal) x0 x1 x2 x3 acc) = k0_pay9 (F := Ideal) x0 x1 x2 x3 acc := shapeCast_self _ _
  rw [e1]
  unfold k0_pay9
  refine (congrArg (acc (ix2 r 0) + ·) (colSum _ r)).trans ?_
  refine congrArg (acc (ix2 r 0) + ·) (Finset.sum_congr rfl fun q _ => ?_)
  have h : ∀ (a b : EReal), a = posB x0 x1 x2 x3 r q → b = negB x0 x1 x2 x3 r q → a + b = posB x0 x1 x2 x3 r q + negB x0 x1 x2 x3 r q :=
    fun a b ha hb => by rw [ha, hb]
  refine h _ _ (pos_apply x0 x1 x2 x3 r q) ?_
  have hn : ∀ (w : BitVec 1) (s : EReal), w = sameB x2 x3 r q → s = simB x0 x1 r q →
      Scalar.select (IntOp.andi (IntOp.xori w 1#1) (Ideal.cmp .ogt s negThr)) s zeroC = negB x0 x1 x2 x3 r q :=
    fun w s hw hs => by rw [hw, hs]; rfl
  exact hn _ _ (same_apply x2 x3 r q) (sim_apply x0 x1 r q)

/-- The positives' step: each row of the accumulator gains the row's positive contributions over the tile. -/
theorem posStep_apply (x0 x1 : FVec Ideal S1024x1024 .bf16) (x2 : IVec S1024x1 32) (x3 : IVec S1x1024 32) (acc : FVec Ideal S1024x1 .f32) (r : Fin 1024) :
    k0_pay2 (F := Ideal) (k0_pay8 (F := Ideal) x0 x1 x2 x3) acc (ix2 r 0)
      = acc (ix2 r 0) + ∑ q : Fin 1024, posB x0 x1 x2 x3 r q := by
  unfold k0_pay2
  have e : ∀ w : FVec Ideal S1024x1 .f32, shapeCast S1024x1 w shapeCasts_S1024x1_S1024x1 = w := fun w => shapeCast_self _ _
  refine (congrFun (e _) (ix2 r 0)).trans ?_
  refine (congrArg (acc (ix2 r 0) + ·) (colSum _ r)).trans ?_
  exact congrArg (acc (ix2 r 0) + ·) (Finset.sum_congr rfl fun q _ => pos_apply x0 x1 x2 x3 r q)

/-- The zero block a row tile's first point starts its accumulators from. -/
theorem zero4_apply (r : Fin 1024) : k0_pay4 (F := Ideal) (ix2 r 0) = zeroC := by
  unfold k0_pay4
  exact congrFun (shapeCast_self _ _) (ix2 r 0)
theorem zero5_apply (r : Fin 1024) : k0_pay5 (F := Ideal) (ix2 r 0) = zeroC := by
  unfold k0_pay5
  exact congrFun (shapeCast_self _ _) (ix2 r 0)

/-- The output block: the loss where the positives' accumulator exceeds zero, else zero. -/
theorem gate_apply (p l : FVec Ideal S1024x1 .f32) (r : Fin 1024) :
    k0_pay3 (F := Ideal) p l (ix2 r 0) = Scalar.select (Ideal.cmp .ogt (p (ix2 r 0)) zeroC) (l (ix2 r 0)) zeroC := rfl

end Cert.KernelIdeal.TileValue

end
-- ==== Proof.Blocks.lean ====
/-
  Where a grid point's input blocks sit in the arrays the region is launched on. The 64 points are numbered row tile
  first: point `t` works on row tile `t / 8` and column tile `t % 8`. Its block of the first normalised array is rows
  `1024 (t / 8) ..` of it, its block of the transposed second one is columns `1024 (t % 8) ..`, and the two label blocks
  are the same rows of the label column and the same columns of the label row.
-/
import proofs.«178529_j10222022165007_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Row `r` of point `n`'s row tile, as a row of the whole array. -/
def grow (n : ℕ) (hn : n < 64) (r : Fin 1024) : Fin 8192 := ⟨1024 * (n / 8) + r.val, by have := r.isLt; omega⟩
/-- Column `q` of point `n`'s column tile, as a column of the whole array. -/
def gcol (n : ℕ) (q : Fin 1024) : Fin 8192 := ⟨1024 * (n % 8) + q.val, by have := q.isLt; omega⟩

theorem lt64 (t : Fin cfg0.N) : t.val < 64 := lt_of_lt_of_eq t.isLt (show cfg0.N = 64 from N_0)

/-- The windows' block indices at a point, decided over the grid. -/
theorem index0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem index2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem index3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem index4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- The first array's block: rows of the point's row tile. -/
theorem iblk0_apply (c : Dev nD) (t : Fin cfg0.N) (r k : Fin 1024) :
    (iblk m c 0 t : Vec F S1024x1024 .bf16) (ix2 r k) = V m c main_v8 (ix2 (grow t.val (lt64 t) r) k) := by
  have hi := index0 t
  unfold iblk
  rw [View.read_apply]
  show V m c main_v8 _ = V m c main_v8 _
  congr 1
  funext a
  apply Fin.ext
  match a with
  | ⟨0, _⟩ => show win0_0.index t 0 * 1024 + 1 * r.val = 1024 * (t.val / 8) + r.val; rw [hi.1]; omega
  | ⟨1, _⟩ => show win0_0.index t 1 * 1024 + 1 * k.val = k.val; rw [hi.2]; omega

/-- The transposed second array's block: columns of the point's column tile. -/
theorem iblk1_apply (c : Dev nD) (t : Fin cfg0.N) (k q : Fin 1024) :
    (iblk m c 1 t : Vec F S1024x1024 .bf16) (ix2 k q) = V m c main_v18 (ix2 k (gcol t.val q)) := by
  have hi := index1 t
  unfold iblk
  rw [View.read_apply]
  show V m c main_v18 _ = V m c main_v18 _
  congr 1
  funext a
  apply Fin.ext
  match a with
  | ⟨0, _⟩ => show win0_1.index t 0 * 1024 + 1 * k.val = k.val; rw [hi.1]; omega
  | ⟨1, _⟩ => show win0_1.index t 1 * 1024 + 1 * q.val = 1024 * (t.val % 8) + q.val; rw [hi.2]; omega

/-- The label column's block: the row tile's rows. -/
theorem iblk2_apply (c : Dev nD) (t : Fin cfg0.N) (r : Fin 1024) :
    (iblk m c 2 t : Vec F S1024x1 .i32) (ix2 r 0) = V m c main_v19 (ix2 (grow t.val (lt64 t) r) 0) := by
  have hi := index2 t
  unfold iblk
  rw [View.read_apply]
  show V m c main_v19 _ = V m c main_v19 _
  congr 1
  funext a
  apply Fin.ext
  match a with
  | ⟨0, _⟩ => show win0_2.index t 0 * 1024 + 1 * r.val = 1024 * (t.val / 8) + r.val; rw [hi.1]; omega
  | ⟨1, _⟩ => show win0_2.index t 1 * 1 + 1 * 0 = 0; rw [hi.2]

/-- The label row's block: the column tile's columns. -/
theorem iblk3_apply (c : Dev nD) (t : Fin cfg0.N) (q : Fin 1024) :
    (iblk m c 3 t : Vec F S1x1024 .i32) (ix2 0 q) = V m c main_v20 (ix2 0 (gcol t.val q)) := by
  have hi := index3 t
  unfold iblk
  rw [View.read_apply]
  show V m c main_v20 _ = V m c main_v20 _
  congr 1
  funext a
  apply Fin.ext
  match a with
  | ⟨0, _⟩ => show win0_3.index t 0 * 1 + 1 * 0 = 0; rw [hi.1]
  | ⟨1, _⟩ => show win0_3.index t 1 * 1024 + 1 * q.val = 1024 * (t.val % 8) + q.val; rw [hi.2]; omega

end Cert.KernelIdeal.Blocks

end
-- ==== Proof.Accum.lean ====
/-
  The accumulators across a row tile's eight points. With `sK` the similarity and `eK` the label agreement read off
  the arrays the region is launched on, the loss accumulator after point `n` holds, at local row `r`, the
  specification's `accL` of the global row after `n % 8 + 1` column tiles, and the positives' accumulator its `accP`:
  at a row tile's first point both start from zero and gain tile 0's share; at every later point they gain the
  point's tile's share over what the point before left. At the row tile's last point the output block is the gated
  loss of the eight tiles: the kernel's row loss `rowKer`.
-/
import proofs.«178529_j10222022165007_2_alg».proof.Proof.Pieces
import proofs.«178529_j10222022165007_2_alg».proof.Proof.Payload
import proofs.«178529_j10222022165007_2_alg».proof.Proof.Blocks

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.Contrastive Cert.KernelIdeal.Tile Cert.KernelIdeal.TileValue Cert.KernelIdeal.Blocks

variable (m : (ℓ : Loc nD τ sig) → Buf (Elt Ideal) ℓ) (c : Dev nD)

/-- The region's four operand arrays, at their types: the first normalised array, the second one transposed, the label
    column and the label row. -/
abbrev arrA : S8192x1024.Idx → EReal := V m c main_v8
abbrev arrBt : S1024x8192.Idx → EReal := V m c main_v18
abbrev lblC : S8192x1.Idx → BitVec 32 := V m c main_v19
abbrev lblR : S1x8192.Idx → BitVec 32 := V m c main_v20

/-- The similarity of global row `i` and global column `j`, off the region's two operand arrays. -/
def sK (i j : Fin 8192) : EReal := ∑ k : Fin 1024, arrA m c (ix2 i k) * arrBt m c (ix2 k j)
/-- Whether global row `i`'s label is global column `j`'s, off the region's two label arrays. -/
def eK (i j : Fin 8192) : BitVec 1 := IntOp.cmpi .eq (lblC m c (ix2 i 0)) (lblR m c (ix2 0 j))

theorem xori_one (w : BitVec 1) : IntOp.xori w 1#1 = ~~~w := by
  unfold IntOp.xori
  revert w
  decide

/-! ## A point's blocks, read in the whole arrays -/

theorem simB_point (t : Fin cfg0.N) (r q : Fin 1024) :
    simB (iblk m c 0 t) (iblk m c 1 t) r q = sK m c (grow t.val (lt64 t) r) (gcol t.val q) := by
  unfold simB sK
  refine Finset.sum_congr rfl fun k _ => ?_
  have h0 : (iblk m c 0 t : Vec Ideal S1024x1024 .bf16) (ix2 r k) = arrA m c (ix2 (grow t.val (lt64 t) r) k) := iblk0_apply m c t r k
  have h1 : (iblk m c 1 t : Vec Ideal S1024x1024 .bf16) (ix2 k q) = arrBt m c (ix2 k (gcol t.val q)) := iblk1_apply m c t k q
  rw [h0, h1]

theorem sameB_point (t : Fin cfg0.N) (r q : Fin 1024) :
    sameB (iblk m c 2 t) (iblk m c 3 t) r q = eK m c (grow t.val (lt64 t) r) (gcol t.val q) := by
  unfold sameB eK
  have h2 : (iblk m c 2 t : Vec Ideal S1024x1 .i32) (ix2 r 0) = lblC m c (ix2 (grow t.val (lt64 t) r) 0) := iblk2_apply m c t r
  have h3 : (iblk m c 3 t : Vec Ideal S1x1024 .i32) (ix2 0 q) = lblR m c (ix2 0 (gcol t.val q)) := iblk3_apply m c t q
  rw [h2, h3]

theorem posB_point (t : Fin cfg0.N) (r q : Fin 1024) :
    posB (iblk m c 0 t) (iblk m c 1 t) (iblk m c 2 t) (iblk m c 3 t) r q
      = posC (sK m c) (eK m c) (grow t.val (lt64 t) r) (gcol t.val q) := by
  unfold posB posC posMask
  rw [simB_point m c t r q, sameB_point m c t r q]

theorem negB_point (t : Fin cfg0.N) (r q : Fin 1024) :
    negB (iblk m c 0 t) (iblk m c 1 t) (iblk m c 2 t) (iblk m c 3 t) r q
      = negC (sK m c) (eK m c) (grow t.val (lt64 t) r) (gcol t.val q) := by
  unfold negB negC negMask
  rw [simB_point m c t r q, sameB_point m c t r q, xori_one]

/-- The point's column tile's columns are the specification's tile `t % 8`. -/
theorem gcol_eq (n : ℕ) (q : Fin 1024) : gcol n q = col ⟨n % 8, Nat.mod_lt _ (by decide)⟩ q := rfl

/-- A point's loss step, in the whole arrays: the accumulator gains the tile's share of the global row's loss. -/
theorem stepL_point (t : Fin cfg0.N) (acc : FVec Ideal S1024x1 .f32) (r : Fin 1024) :
    stepL (iblk m c 0 t) (iblk m c 1 t) (iblk m c 2 t) (iblk m c 3 t) acc (ix2 r 0)
      = acc (ix2 r 0) + tileL (sK m c) (eK m c) (grow t.val (lt64 t) r) (t.val % 8) := by
  unfold stepL
  refine (loss_apply (iblk m c 0 t) (iblk m c 1 t) (iblk m c 2 t) (iblk m c 3 t) acc r).trans ?_
  unfold tileL
  rw [dif_pos (Nat.mod_lt _ (by decide))]
  refine congrArg (acc (ix2 r 0) + ·) (Finset.sum_congr rfl fun q _ => ?_)
  rw [posB_point m c t r q, negB_point m c t r q, gcol_eq]

/-- A point's positives' step, in the whole arrays. -/
theorem stepP_point (t : Fin cfg0.N) (acc : FVec Ideal S1024x1 .f32) (r : Fin 1024) :
    stepP (iblk m c 0 t) (iblk m c 1 t) (iblk m c 2 t) (iblk m c 3 t) acc (ix2 r 0)
      = acc (ix2 r 0) + tileP (sK m c) (eK m c) (grow t.val (lt64 t) r) (t.val % 8) := by
  unfold stepP
  refine (posStep_apply (iblk m c 0 t) (iblk m c 1 t) (iblk m c 2 t) (iblk m c 3 t) acc r).trans ?_
  unfold tileP
  rw [dif_pos (Nat.mod_lt _ (by decide))]
  refine congrArg (acc (ix2 r 0) + ·) (Finset.sum_congr rfl fun q _ => ?_)
  rw [posB_point m c t r q, gcol_eq]

/-! ## The accumulators after each point -/

theorem hN : cfg0.N = 64 := N_0

/-- After point `n` the two accumulators hold the specification's, after `n % 8 + 1` tiles, of each row of the
    point's row tile. -/
theorem acc_eq : ∀ (n : ℕ) (hn : n < cfg0.N) (r : Fin 1024),
    (outsAt0 m c n hn).2.1 (ix2 r 0) = accL (sK m c) (eK m c) (grow n (lt_of_lt_of_eq hn hN) r) (n % 8 + 1)
    ∧ (outsAt0 m c n hn).2.2 (ix2 r 0) = accP (sK m c) (eK m c) (grow n (lt_of_lt_of_eq hn hN) r) (n % 8 + 1) := by
  intro n
  induction n with
  | zero =>
    intro hn r
    have h0 : (⟨0, hn⟩ : Fin cfg0.N).val % 8 = 0 := rfl
    have h1 : ¬(⟨0, hn⟩ : Fin cfg0.N).val % 8 = 7 := fun h => absurd (show 0 % 8 = 7 from h) (by decide)
    rw [outsAt0_A m c ⟨0, hn⟩ h0 h1]
    dsimp only
    rw [first_loss, first_pos]
    refine ⟨(stepL_point m c ⟨0, hn⟩ _ r).trans ?_, (stepP_point m c ⟨0, hn⟩ _ r).trans ?_⟩
    · rw [zero4_apply]; rfl
    · rw [zero5_apply]; rfl
  | succ n ih =>
    intro hn r
    have h64 : n + 1 < 64 := lt_of_lt_of_eq hn hN
    obtain ⟨ihL, ihP⟩ := ih (Nat.lt_of_succ_lt hn) r
    by_cases h0 : (n + 1) % 8 = 0
    · have h1 : ¬(n + 1) % 8 = 7 := by omega
      rw [outsAt0_A m c ⟨n + 1, hn⟩ h0 h1]
      dsimp only
      rw [first_loss, first_pos]
      refine ⟨(stepL_point m c ⟨n + 1, hn⟩ _ r).trans ?_, (stepP_point m c ⟨n + 1, hn⟩ _ r).trans ?_⟩
      · rw [zero4_apply]
        show zeroC + tileL (sK m c) (eK m c) _ ((n + 1) % 8) = accL (sK m c) (eK m c) _ ((n + 1) % 8 + 1)
        rw [h0]; rfl
      · rw [zero5_apply]
        show zeroC + tileP (sK m c) (eK m c) _ ((n + 1) % 8) = accP (sK m c) (eK m c) _ ((n + 1) % 8 + 1)
        rw [h0]; rfl
    · have hg : grow n (lt_of_lt_of_eq (Nat.lt_of_succ_lt hn) hN) r = grow (n + 1) h64 r := by
        apply Fin.ext
        show 1024 * (n / 8) + r.val = 1024 * ((n + 1) / 8) + r.val
        have : n / 8 = (n + 1) / 8 := by omega
        rw [this]
      have hm : n % 8 + 1 = (n + 1) % 8 := by omega
      rw [hg, hm] at ihL ihP
      by_cases h1 : (n + 1) % 8 = 7
      · rw [outsAt0_C m c ⟨n + 1, hn⟩ h0 h1]
        dsimp only
        rw [last_loss, last_pos]
        refine ⟨(stepL_point m c ⟨n + 1, hn⟩ _ r).trans ?_, (stepP_point m c ⟨n + 1, hn⟩ _ r).trans ?_⟩
        · show (outsAt0 m c n _).2.1 (ix2 r 0) + _ = _
          rw [ihL]; rfl
        · show (outsAt0 m c n _).2.2 (ix2 r 0) + _ = _
          rw [ihP]; rfl
      · rw [outsAt0_B m c ⟨n + 1, hn⟩ h0 h1]
        dsimp only
        rw [middle_loss, middle_pos]
        refine ⟨(stepL_point m c ⟨n + 1, hn⟩ _ r).trans ?_, (stepP_point m c ⟨n + 1, hn⟩ _ r).trans ?_⟩
        · show (outsAt0 m c n _).2.1 (ix2 r 0) + _ = _
          rw [ihL]; rfl
        · show (outsAt0 m c n _).2.2 (ix2 r 0) + _ = _
          rw [ihP]; rfl

/-- At a row tile's last point the output block holds the kernel's row loss of each of the tile's rows. -/
theorem out_eq (t : Fin cfg0.N) (h7 : t.val % 8 = 7) (r : Fin 1024) :
    (outsAt0 m c t.val t.isLt).1 (ix2 r 0) = rowKer (sK m c) (eK m c) (grow t.val (lt64 t) r) := by
  have h0 : ¬t.val % 8 = 0 := by omega
  have hpos : 0 < t.val := by omega
  obtain ⟨n, hn⟩ : ∃ n, t.val = n + 1 := ⟨t.val - 1, by omega⟩
  obtain ⟨ihL, ihP⟩ := acc_eq m c t.val t.isLt r
  rw [outsAt0_C m c t h0 h7] at ihL ihP ⊢
  dsimp only at ihL ihP ⊢
  rw [last_out]
  rw [last_loss] at ihL
  rw [last_pos] at ihP
  refine (gate_apply _ _ r).trans ?_
  rw [ihL, ihP, h7]
  rfl

end Cert.KernelIdeal.Accum

end
-- ==== Proof.Final.lean ====
/-
  The kernel's result. Only a row tile's last point writes the output block back, and what it writes is the kernel's
  row loss of the tile's 1024 rows; the eight row tiles cover the [8192, 1] output array, which therefore ends holding
  every row's loss. The host then sums the array from zero and divides by the number of rows: the mean of the row
  losses.
-/
import proofs.«178529_j10222022165007_2_alg».proof.Proof.Accum
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Contrastive Cert.KernelIdeal.Blocks Cert.KernelIdeal.Accum

variable (m : (ℓ : Loc nD τ sig) → Buf (Elt Ideal) ℓ) (ρ : Dev nD → PrngReg)

/-- The output array after the run: row `i` holds the kernel's loss of row `i`. -/
abbrev outArr (c : Dev nD) : Buf (Elt Ideal) ((c : Thread nD τ).loc main_v21) :=
  fun p => rowKer (sK m c) (eK m c) ⟨(p 0).val, (p 0).isLt⟩

/-- What a row tile's last point leaves in the output block is the array's rows of that tile. -/
theorem block_eq (c : Dev nD) (t : Fin cfg0.N) (h7 : t.val % 8 = 7) (y : S1024x1.Idx) :
    (outsAt0 m c t.val t.isLt).1 y = outArr m c (((cfg0.win 4).blk t).view.emb y) := by
  obtain ⟨r, z, rfl⟩ : ∃ (r : Fin 1024) (z : Fin 1), y = ix2 r z := ⟨y 0, y 1, eq_ix2 y⟩
  obtain rfl : z = 0 := Subsingleton.elim _ _
  rw [out_eq m c t h7 r]
  show rowKer (sK m c) (eK m c) _ = rowKer (sK m c) (eK m c) _
  congr 1
  apply Fin.ext
  show 1024 * (t.val / 8) + r.val = win0_4.index t 0 * 1024 + 1 * r.val
  rw [(index4 t).1]
  omega

/-- What the pipeline writes back at a point that writes back: that block of the output array. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  show (cfg0.win 4).cut (grid0.coords t) ((dats m 0 c).after 4 t) = _
  rw [after0_4]
  funext y
  rw [View.read_apply]
  exact block_eq m c t h7 y

/-- Every row of the output array is in the block some writing point writes: row `i` in row tile `i / 1024`'s
    last point's. -/
theorem cover (i : S8192x1.Idx) : ∃ t : Fin cfg0.N, (cfg0.win 4).flush t = true ∧ i ∈ ((cfg0.win 4).blk t).view.set := by
  have h0 : (i 0).val < 8192 := (i 0).isLt
  have h1 : (i 1).val < 1 := (i 1).isLt
  have hN : cfg0.N = 64 := N_0
  obtain ⟨t, htv⟩ : ∃ t : Fin cfg0.N, t.val = 8 * ((i 0).val / 1024) + 7 := ⟨⟨8 * ((i 0).val / 1024) + 7, by rw [hN]; omega⟩, rfl⟩
  have ht7 : t.val % 8 = 7 := by omega
  refine ⟨t, (flush0_4 t).mpr ht7, ?_⟩
  show i ∈ ((View.whole main_v21).slice (win0_4.rect t)).set
  rw [View.set_slice_whole, Rect.mem_set_unit]
  intro a
  have hi := index4 t
  match a with
  | ⟨0, _⟩ =>
    show win0_4.index t 0 * 1024 ≤ (i 0).val ∧ (i 0).val < win0_4.index t 0 * 1024 + 1024
    rw [hi.1]; omega
  | ⟨1, _⟩ =>
    show win0_4.index t 1 * 1 ≤ (i 1).val ∧ (i 1).val < win0_4.index t 1 * 1 + 1
    rw [hi.2]; omega

/-- The output array after the run. -/
theorem final (c : Dev nD) : (dats m 0 c).arrAt 4 cfg0.N = outArr m c :=
  (dats m 0 c).arrAt_eq_of_cover 4 (outArr m c) (flushed_eq m c) cover

/-- The sum over the [8192, 1] array is the sum over its rows. -/
theorem sum_rows (f : S8192x1.Idx → EReal) : ∑ p : S8192x1.Idx, f p = ∑ i : Fin 8192, f (ix2 i 0) := by
  rw [sum_idx2]
  refine Finset.sum_congr rfl fun i _ => ?_
  rw [Fin.sum_univ_one]

/-- The host's lines after the region leave the mean of the kernel's row losses in the result. -/
theorem tail_eq (c : Dev nD) :
    Pipeline.afterTail₀ cfgs (dats m) 0 (V0 m) [hostOps1] c main_v23 = fun _ => meanOf (rowKer (sK m c) (eK m c)) := by
  unfold Pipeline.afterTail₀
  show StableHlo.after hostOps1 _ (Proc.devRef .tc main_v23) = _
  after_results
  rw [(Pipeline.withArrays_arr spec0 launch0.win.arr_inj c _ _ 4).trans (final m c)]
  funext z
  show Ideal.div (Ideal.hostReduceAdd reducesTo_S8192x1_S_d0_1 (outArr m c) zeroC z) rowsC = _
  rw [Ideal.hostReduceAdd_total reducesTo_S8192x1_S_d0_1 (fun b => b.elim0) (outArr m c) zeroC z, sum_rows]
  rfl

/-- The kernel's run, read: the result buffer at the mean of the kernel's row losses, the arguments unchanged. -/
theorem run : θ_run defs (onTc (τ := τ) (main (F := Ideal))) ⟨m, fun _ => 0, ρ⟩ fun r => ∀ c : Dev nD,
      r.2.mem ((c.tc : Thread nD τ).loc main_v23) = (fun _ => meanOf (rowKer (sK m c) (eK m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.HostPrefix.lean ====
/-
  The kernel program's host prefix read at an index.

  Before its one region the program runs twenty-five host operations. Four of the buffers they write are the region's
  operands: the first argument array with every row divided by sqrt (0 + the row's sum of squares + eps), converted to
  bf16; the same of the third argument array, then transposed to [1024, 8192]; the second argument (the labels of the
  first side) reshaped [8192] -> [8192, 1]; the fourth argument reshaped [8192] -> [1, 8192]. Over the extended reals a
  format conversion is the identity, the host's sum is the initial value plus the sum, and its quotient and square root
  are the extended reals' own, so the first two operands are the specification's `normed` arrays (the second read with
  its coordinates exchanged) and the last two are the label vectors at the one coordinate that is not a unit axis.
-/
import proofs.«178529_j10222022165007_2_alg».proof.Proof.Gen.KernelIdeal.Frame
import proofs.«178529_j10222022165007_2_alg».proof.Proof.Spec
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.Tactic

noncomputable section

open scoped BigOperators

namespace Cert.KernelIdeal.Prefix

open Cert.KernelIdeal Cert.KernelIdeal.Gen Cert.Contrastive Idealize.ShloMosaic Idealize.ShloMosaic.TcCoe Idealize.SL.Sem Idealize.ShloMosaic.ValueIdx
open Idealize.ShloMosaic.StableHlo

/-! ## The row normalisation as the operations compose it -/

/-- An [8192, 1024] array divided by the broadcast, along its rows, of
    sqrt (broadcast (0 + the rows' sums of squares) + broadcast eps): the composition of the ten operations that
    normalise an argument array, as a function of that array. -/
def normTerm (x : (⟨S8192x1024, .f32⟩ : BufTy).Contents (Elt Ideal)) : (⟨S8192x1024, .f32⟩ : BufTy).Contents (Elt Ideal) :=
  Host.divf (F := Ideal) x
    (broadcastInDim S8192x1024 ![0, 1] bcast_S8192x1_S8192x1024_0_1
      (Host.sqrt (F := Ideal)
        (addf
          (broadcastInDim S8192x1 ![0] bcast_S8192_S8192x1_0
            (Host.reduceAdd (F := Ideal) (mulf x x) (constant (F := Ideal) S_ .f32 0x00000000#32) reducesTo_S8192x1024_S8192_d1 h_S_))
          (broadcastInDim S8192x1 ![] bcast_S_S8192x1 (constant (F := Ideal) S_ .f32 0x2B8CBCCC#32)))))

/-- Read at (i, k), outermost operation first: the quotient of the entry by the denominator at (i, k); the denominator,
    a broadcast of an [8192, 1] column, at (i, 0); there the square root of a sum of two broadcasts: of the row sums,
    read at i, which is 0 plus the sum over the row's 1024 entries of their squares, and of the scalar eps. That is the
    specification's `normed` at (i, k). -/
theorem normTerm_apply (x : (⟨S8192x1024, .f32⟩ : BufTy).Contents (Elt Ideal)) (i : Fin 8192) (k : Fin 1024) :
    normTerm x (ix2 i k) = normed x (ix2 i k) := by
  unfold normTerm normed
  show Ideal.div (x (ix2 i k)) _ = Ideal.div (x (ix2 i k)) _
  refine congrArg (Ideal.div (x (ix2 i k))) ?_
  -- the [8192, 1] -> [8192, 1024] broadcast at (i, k) is its operand at (i, 0)
  refine (broadcastInDim_apply _ bcast_S8192x1_S8192x1024_0_1 _ (ix2 i k) (ix2 i 0) (fun a => match a with
    | ⟨0, _⟩ => by show i.val = if (8192 : Nat) = 1 then 0 else i.val; rw [if_neg (by decide)]
    | ⟨1, _⟩ => by show 0 = if (1 : Nat) = 1 then 0 else k.val; rw [if_pos rfl])).trans ?_
  show Ideal.sqrt _ = Ideal.sqrt _
  refine congrArg Ideal.sqrt ?_
  show _ + _ = _ + _
  refine congr (congrArg HAdd.hAdd ?_) ?_
  · -- the [8192] -> [8192, 1] broadcast at (i, 0) is the row sums at i
    refine (broadcastInDim_apply _ bcast_S8192_S8192x1_0 _ (ix2 i 0) (ix1 i) (fun a => match a with
      | ⟨0, _⟩ => by show i.val = if (8192 : Nat) = 1 then 0 else i.val; rw [if_neg (by decide)])).trans ?_
    -- the host's sum over axis 1 at i: the initial value plus the sum over the row
    simp only [Host.reduceAdd, Ideal.hostReduceAdd_def]
    rw [Ideal.hostReduceAdd_single reducesTo_S8192x1024_S8192_d1 (by decide)]
    refine congr (congrArg HAdd.hAdd rfl) (Finset.sum_congr rfl fun k' _ => ?_)
    show x _ * x _ = x _ * x _
    -- the index with coordinate k' inserted on axis 1 of (i) is (i, k')
    have hi : (Shape.Reduces.lift (by decide : S8192x1024.Reduces [1] S8192) (ix1 i) k') = ix2 i k' :=
      funext fun a => Fin.ext (by match a with | ⟨0, _⟩ => rfl | ⟨1, _⟩ => rfl)
    rw [hi]
    rfl
  · -- the scalar's broadcast at any index is the scalar
    exact broadcastInDim_apply _ bcast_S_S8192x1 _ (ix2 i 0) (fun a => a.elim0) (fun a => a.elim0)

variable (m : (ℓ : Loc nD τ sig) → Buf (Elt Ideal) ℓ) (c : Dev nD)

/-! ## The four operands as the operations' terms of the argument arrays

Each operation's result at its own buffer is its function of its operands' contents, and at any other buffer what was
there; followed from the operand's buffer back to the arguments, that is the composed term. -/

/-- The first operand: the normalised first argument array, converted to bf16. -/
theorem v8_eq : @Eq (FVec Ideal S8192x1024 .bf16) (V m c main_v8)
    (truncf (F := Ideal) .bf16 (normTerm (m ((c : Thread nD τ).loc main_arg0))) bitsLt_bf16_f32) := by
  dsimp only [Gen.V, Gen.V0]
  simp only [Gen.hostOps0, List.flatten_cons, List.flatten_nil, List.append_nil, List.cons_append, List.nil_append]
  after_results
  rfl

/-- The second operand: the normalised third argument array, converted to bf16, transposed. -/
theorem v18_eq : @Eq (FVec Ideal S1024x8192 .bf16) (V m c main_v18)
    (transpose S1024x8192 [1, 0] (truncf (F := Ideal) .bf16 (normTerm (m ((c : Thread nD τ).loc main_arg2))) bitsLt_bf16_f32)
      transposes_S8192x1024_S1024x8192_1_0) := by
  dsimp only [Gen.V, Gen.V0]
  simp only [Gen.hostOps0, List.flatten_cons, List.flatten_nil, List.append_nil, List.cons_append, List.nil_append]
  after_results
  rfl

/-- The third operand: the second argument reshaped to a column. -/
theorem v19_eq : (V m c main_v19 : S8192x1.Idx → BitVec 32)
    = shapeCast S8192x1 (m ((c : Thread nD τ).loc main_arg1)) shapeCasts_S8192_S8192x1 := by
  dsimp only [Gen.V, Gen.V0]
  simp only [Gen.hostOps0, List.flatten_cons, List.flatten_nil, List.append_nil, List.cons_append, List.nil_append]
  after_results
  rfl

/-- The fourth operand: the fourth argument reshaped to a row. -/
theorem v20_eq : (V m c main_v20 : S1x8192.Idx → BitVec 32)
    = shapeCast S1x8192 (m ((c : Thread nD τ).loc main_arg3)) shapeCasts_S8192_S1x8192 := by
  dsimp only [Gen.V, Gen.V0]
  simp only [Gen.hostOps0, List.flatten_cons, List.flatten_nil, List.append_nil, List.cons_append, List.nil_append]
  after_results
  rfl

/-! ## The four operands at an index -/

/-- The first operand at (i, k) is the first argument array, row-normalised, at (i, k): the conversion is the identity. -/
theorem v8_apply (i : Fin 8192) (k : Fin 1024) :
    V m c main_v8 (ix2 i k) = normed (m ((c : Thread nD τ).loc main_arg0)) (ix2 i k) := by
  refine (congrFun (v8_eq m c) (ix2 i k)).trans ?_
  exact normTerm_apply _ i k

/-- The second operand at (k, j) is the third argument array, row-normalised, at (j, k): the transposition exchanges
    the two coordinates. -/
theorem v18_apply (k : Fin 1024) (j : Fin 8192) :
    V m c main_v18 (ix2 k j) = normed (m ((c : Thread nD τ).loc main_arg2)) (ix2 j k) := by
  refine (congrFun (v18_eq m c) (ix2 k j)).trans ?_
  refine (transpose_apply [1, 0] _ transposes_S8192x1024_S1024x8192_1_0 (ix2 k j) (ix2 j k) (fun b => match b with
    | ⟨0, _⟩ => rfl
    | ⟨1, _⟩ => rfl)).trans ?_
  exact normTerm_apply _ j k

/-- The third operand at (i, 0) is the second argument at i: both have row-major position i. -/
theorem v19_apply (i : Fin 8192) :
    V m c main_v19 (ix2 i 0) = m ((c : Thread nD τ).loc main_arg1) (ix1 i) := by
  refine (congrFun (v19_eq m c) (ix2 i 0)).trans ?_
  refine shapeCast_apply _ shapeCasts_S8192_S8192x1 (ix2 i 0) (ix1 i) ?_
  rw [Shape.rowMajor_val_one, Shape.rowMajor_val_two]
  show i.val = i.val * 1 + 0
  omega

/-- The fourth operand at (0, j) is the fourth argument at j: both have row-major position j. -/
theorem v20_apply (j : Fin 8192) :
    V m c main_v20 (ix2 0 j) = m ((c : Thread nD τ).loc main_arg3) (ix1 j) := by
  refine (congrFun (v20_eq m c) (ix2 0 j)).trans ?_
  refine shapeCast_apply _ shapeCasts_S8192_S1x8192 (ix2 0 j) (ix1 j) ?_
  rw [Shape.rowMajor_val_one, Shape.rowMajor_val_two]
  show j.val = 0 * 8192 + j.val
  omega

end Cert.KernelIdeal.Prefix

end
-- ==== Proof.RefValue.lean ====
/-
  The reference program's value is the specification.

  The reference's operations have each been read at an index from their operands at an index. Composing those
  readings from the arguments up gives, at explicit coordinates:
  * each array divided, row by row, by the square root of (zero plus the row's sum of squares, plus epsilon) is
    `normed`; the second one is then transposed, so the contraction over the shared axis is `simOf`: the inner
    product of normalised row i of the first array and normalised row j of the second;
  * the two label vectors, one broadcast along the rows and one along the columns, compared for equality, are
    `sameOf`;
  * the two masks and the two selections are `posMask`, `negMask`, `posC`, `negC`, literal for literal;
  * the two row sums start from zero; the row-wise `or` (a reduction along one axis by a commutative and
    associative operation) is the fold over the row's columns from the clear bit; the selection on it is `rowRef`;
  * the sum over all rows, re-indexed from rank-1 indices to their one coordinate, divided by the number of rows,
    is `meanOf`.
-/
import proofs.«178529_j10222022165007_2_alg».proof.Proof.RefRead
import proofs.«178529_j10222022165007_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.ReadP Cert.Contrastive Idealize.ShloMosaic Idealize.ShloMosaic.ValueIdx

/-! ## The reference's two matrices -/

/-- The similarity matrix the reference computes: inner products of the normalised rows. -/
abbrev simR (x0 x2 : (⟨S8192x1024, .f32⟩ : BufTy).Contents (Elt Ideal)) : Fin 8192 → Fin 8192 → EReal :=
  simOf (normed x0) (normed x2)
/-- The label-agreement matrix the reference computes. -/
abbrev sameR (x1 x3 : (⟨S8192, .i32⟩ : BufTy).Contents (Elt Ideal)) : Fin 8192 → Fin 8192 → BitVec 1 :=
  sameOf x1 x3

section Chain
variable (x0 : (⟨S8192x1024, .f32⟩ : BufTy).Contents (Elt Ideal)) (x1 : (⟨S8192, .i32⟩ : BufTy).Contents (Elt Ideal))
  (x2 : (⟨S8192x1024, .f32⟩ : BufTy).Contents (Elt Ideal)) (x3 : (⟨S8192, .i32⟩ : BufTy).Contents (Elt Ideal))

/-! ## Normalised rows -/

/-- Row `i`'s sum of squares, from zero. -/
theorem v1_at (i : Fin 8192) :
    val_main_v1 (F := Ideal) x0 (ix1 i) = zeroC + ∑ k : Fin 1024, x0 (ix2 i k) * x0 (ix2 i k) := by
  refine (val_main_v1_apply x0 (ix1 i)).trans ?_
  refine congrArg (zeroC + ·) (Finset.sum_congr rfl fun k _ => ?_)
  have e : idx_main_v1 (ix1 i) k = ix2 i k := funext fun a => by
    match a with
    | ⟨0, _⟩ => rfl
    | ⟨1, _⟩ => rfl
  rw [e]
  rfl

/-- Row `i`'s norm: the square root of the sum of squares plus epsilon. -/
theorem v4_at (i : Fin 8192) :
    val_main_v4 (F := Ideal) x0 (ix1 i)
      = Ideal.sqrt ((zeroC + ∑ k : Fin 1024, x0 (ix2 i k) * x0 (ix2 i k)) + epsC) := by
  show Ideal.sqrt (val_main_v1 (F := Ideal) x0 (ix1 i) + val_main_v2 (F := Ideal) (ix1 i)) = _
  rw [v1_at, val_main_v2_apply]
  rfl

/-- The norm broadcast along the row. -/
theorem v6_at (i : Fin 8192) (k : Fin 1024) :
    val_main_v6 (F := Ideal) x0 (ix2 i k) = val_main_v4 (F := Ideal) x0 (ix1 i) := by
  refine (val_main_v6_apply x0 (ix2 i k)).trans ((val_main_v5_apply x0 _).trans (congrArg (val_main_v4 (F := Ideal) x0) ?_))
  funext a
  match a with
  | ⟨0, _⟩ => rfl

/-- The first array, normalised. -/
theorem v7_at (i : Fin 8192) (k : Fin 1024) :
    val_main_v7 (F := Ideal) x0 (ix2 i k) = normed x0 (ix2 i k) := by
  show Ideal.div (x0 (ix2 i k)) (val_main_v6 (F := Ideal) x0 (ix2 i k)) = _
  rw [v6_at, v4_at]
  rfl

/-- The second array goes through the same operations as the first. -/
theorem v15_eq_v7 : val_main_v15 (F := Ideal) x2 = val_main_v7 (F := Ideal) x2 := rfl

/-- The second array, normalised and transposed. -/
theorem v16_at (k : Fin 1024) (j : Fin 8192) :
    val_main_v16 (F := Ideal) x2 (ix2 k j) = normed x2 (ix2 j k) := by
  refine (val_main_v16_apply x2 (ix2 k j)).trans ?_
  have e : idx_main_v16 (ix2 k j) = ix2 j k := funext fun a => by
    match a with
    | ⟨0, _⟩ => rfl
    | ⟨1, _⟩ => rfl
  rw [e, v15_eq_v7, v7_at]

/-! ## The similarity -/

theorem v17_at (i j : Fin 8192) :
    val_main_v17 (F := Ideal) x0 x2 (ix2 i j) = simR x0 x2 i j := by
  refine (val_main_v17_apply x0 x2 (ix2 i j)).trans ?_
  show _ = ∑ k : Fin 1024, normed x0 (ix2 i k) * normed x2 (ix2 j k)
  refine Finset.sum_congr rfl fun k _ => ?_
  have el : lidx_main_v17 (ix2 i j) k = ix2 i k := funext fun a => by
    match a with
    | ⟨0, _⟩ => rfl
    | ⟨1, _⟩ => rfl
  have er : ridx_main_v17 (ix2 i j) k = ix2 k j := funext fun a => by
    match a with
    | ⟨0, _⟩ => rfl
    | ⟨1, _⟩ => rfl
  rw [el, er, v7_at, v16_at]

/-! ## Masks and contributions -/

theorem v22_at (i j : Fin 8192) :
    val_main_v22 (F := Ideal) x1 x3 (ix2 i j) = sameR x1 x3 i j := by
  show IntOp.cmpi .eq (val_main_v20 (F := Ideal) x1 (ix2 i j)) (val_main_v21 (F := Ideal) x3 (ix2 i j)) = _
  rw [val_main_v20_apply, val_main_v18_apply, val_main_v21_apply, val_main_v19_apply]
  have e1 : idx_main_v18 (idx_main_v20 (ix2 i j)) = ix1 i := funext fun a => by
    match a with
    | ⟨0, _⟩ => rfl
  have e3 : idx_main_v19 (idx_main_v21 (ix2 i j)) = ix1 j := funext fun a => by
    match a with
    | ⟨0, _⟩ => rfl
  rw [e1, e3]
  rfl

theorem v25_at (i j : Fin 8192) :
    val_main_v25 (F := Ideal) x0 x1 x2 x3 (ix2 i j) = posMask (simR x0 x2) (sameR x1 x3) i j := by
  show IntOp.andi (val_main_v22 (F := Ideal) x1 x3 (ix2 i j))
    (Ideal.cmp .olt (val_main_v17 (F := Ideal) x0 x2 (ix2 i j)) (val_main_v23 (F := Ideal) (ix2 i j))) = _
  rw [v22_at, v17_at, val_main_v23_apply]
  rfl

theorem v29_at (i j : Fin 8192) :
    val_main_v29 (F := Ideal) x0 x1 x2 x3 (ix2 i j) = negMask (simR x0 x2) (sameR x1 x3) i j := by
  show IntOp.andi (~~~(val_main_v22 (F := Ideal) x1 x3 (ix2 i j)))
    (Ideal.cmp .ogt (val_main_v17 (F := Ideal) x0 x2 (ix2 i j)) (val_main_v27 (F := Ideal) (ix2 i j))) = _
  rw [v22_at, v17_at, val_main_v27_apply]
  rfl

theorem v32_at (i j : Fin 8192) :
    val_main_v32 (F := Ideal) x0 x1 x2 x3 (ix2 i j) = posC (simR x0 x2) (sameR x1 x3) i j := by
  show Scalar.select (val_main_v25 (F := Ideal) x0 x1 x2 x3 (ix2 i j))
    (val_main_v30 (F := Ideal) (ix2 i j) - val_main_v17 (F := Ideal) x0 x2 (ix2 i j))
    (val_main_call0_v1 (F := Ideal) (ix2 i j)) = _
  rw [v25_at, v17_at, val_main_v30_apply, val_main_call0_v1_apply]
  rfl

theorem v34_at (i j : Fin 8192) :
    val_main_v34 (F := Ideal) x0 x1 x2 x3 (ix2 i j) = negC (simR x0 x2) (sameR x1 x3) i j := by
  show Scalar.select (val_main_v29 (F := Ideal) x0 x1 x2 x3 (ix2 i j))
    (val_main_v17 (F := Ideal) x0 x2 (ix2 i j))
    (val_main_call1_v1 (F := Ideal) (ix2 i j)) = _
  rw [v29_at, v17_at, val_main_call1_v1_apply]
  rfl

/-! ## Row sums, the row's gate, the row's loss -/

theorem v33_at (i : Fin 8192) :
    val_main_v33 (F := Ideal) x0 x1 x2 x3 (ix1 i) = zeroC + ∑ j : Fin 8192, posC (simR x0 x2) (sameR x1 x3) i j := by
  refine (val_main_v33_apply x0 x1 x2 x3 (ix1 i)).trans ?_
  refine congrArg (zeroC + ·) (Finset.sum_congr rfl fun j _ => ?_)
  have e : idx_main_v33 (ix1 i) j = ix2 i j := funext fun a => by
    match a with
    | ⟨0, _⟩ => rfl
    | ⟨1, _⟩ => rfl
  rw [e, v32_at]

theorem v35_at (i : Fin 8192) :
    val_main_v35 (F := Ideal) x0 x1 x2 x3 (ix1 i) = zeroC + ∑ j : Fin 8192, negC (simR x0 x2) (sameR x1 x3) i j := by
  refine (val_main_v35_apply x0 x1 x2 x3 (ix1 i)).trans ?_
  refine congrArg (zeroC + ·) (Finset.sum_congr rfl fun j _ => ?_)
  have e : idx_main_v35 (ix1 i) j = ix2 i j := funext fun a => by
    match a with
    | ⟨0, _⟩ => rfl
    | ⟨1, _⟩ => rfl
  rw [e, v34_at]

/-- The square matrix reduces along its second axis to a vector. -/
theorem red_cols : S8192x8192.Reduces [1] S8192 := by decide

/-- The row-wise `or` of the positives' mask: the fold over the row's columns from the clear bit. -/
theorem v36_at (i : Fin 8192) :
    val_main_v36 (F := Ideal) x0 x1 x2 x3 (ix1 i)
      = (Finset.univ : Finset (Fin 8192)).fold IntOp.ori 0#1 (fun j => posMask (simR x0 x2) (sameR x1 x3) i j) := by
  unfold val_main_v36
  refine (Host.reduce_eq_fold_single IntOp.ori _ _ Gen.reducesTo_S8192x8192_S8192_d1 red_cols Gen.h_S_ (ix1 i)).trans ?_
  show (Finset.univ : Finset (Fin 8192)).fold IntOp.ori 0#1
    (fun j : Fin 8192 => val_main_v25 (F := Ideal) x0 x1 x2 x3 (red_cols.lift (ix1 i) j)) = _
  refine Finset.fold_congr fun j _ => ?_
  have e : red_cols.lift (ix1 i) j = ix2 i j := funext fun a => Fin.ext (by
    match a with
    | ⟨0, _⟩ => rfl
    | ⟨1, _⟩ => rfl)
  rw [e, v25_at]

theorem v38_at (i : Fin 8192) :
    val_main_v38 (F := Ideal) x0 x1 x2 x3 (ix1 i) = rowRef (simR x0 x2) (sameR x1 x3) i := by
  show Scalar.select (val_main_v36 (F := Ideal) x0 x1 x2 x3 (ix1 i))
    (val_main_v33 (F := Ideal) x0 x1 x2 x3 (ix1 i) + val_main_v35 (F := Ideal) x0 x1 x2 x3 (ix1 i))
    (val_main_call2_v1 (F := Ideal) (ix1 i)) = _
  rw [v36_at, v33_at, v35_at, val_main_call2_v1_apply]
  rfl

/-! ## The mean -/

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

theorem v39_at (z : S_.Idx) :
    val_main_v39 (F := Ideal) x0 x1 x2 x3 z = zeroC + ∑ i : Fin 8192, rowRef (simR x0 x2) (sameR x1 x3) i := by
  refine (val_main_v39_apply x0 x1 x2 x3 z).trans ?_
  refine congrArg (zeroC + ·) ?_
  rw [← Equiv.sum_comp (idxEquiv1 (n := 8192)).symm]
  exact Finset.sum_congr rfl fun i _ => v38_at x0 x1 x2 x3 i

end Chain

/-- The reference's value: the mean of the rows' losses, on the normalised rows' similarities and the labels'
    agreement. -/
theorem ref_value (x0 x2 : (⟨S8192x1024, .f32⟩ : BufTy).Contents (Elt Ideal)) (x1 x3 : (⟨S8192, .i32⟩ : BufTy).Contents (Elt Ideal)) :
    val_main_v40 (F := Ideal) x0 x1 x2 x3
      = fun _ => meanOf (rowRef (simOf (normed x0) (normed x2)) (sameOf x1 x3)) := by
  funext z
  show Ideal.div (val_main_v39 (F := Ideal) x0 x1 x2 x3 z) (val_main_cst_12 (F := Ideal) z) = _
  rw [v39_at]
  rfl

end Cert.ReferenceIdeal.RefValue

end
-- ==== Proof.lean ====
/-
  The contrastive loss kernel against its jnp reference, over the extended reals.

  Both programs L2-normalise the rows of the two [8192, 1024] arrays (x / sqrt(sum x² + eps)), take every inner product
  `sim i j` of a normalised row of the first with a normalised row of the second, call a pair a positive when the
  labels agree and `sim < 0.99999`, a negative when they differ and `sim > 0.5`, let a positive contribute `1 - sim`
  and a negative `sim`, and return the mean over the rows of the row's summed contributions, a row without a positive
  counting zero.

  The reference does it with one 8192 x 8192 product, sums the positive and the negative contributions of a row
  separately and gates the row by "some pair of it is a positive". The kernel walks an 8 x 8 grid of 1024 x 1024
  tiles, the column tile moving fastest; per row it accumulates, over the row tile's eight column tiles and from zero,
  the sum of the pairs' two contributions added together, and beside it the sum of the positive contributions alone;
  at the row tile's last column tile it writes the accumulated loss where the accumulated positive contributions
  exceed zero, else zero; the host sums the [8192, 1] result and divides by 8192.

  The two agree on every input, finite or not (the precondition is not used): the eight tiles partition the columns
  and sums of extended reals re-associate and split freely (Proof/RowLaw.lean: `accL_eight`, `accP_eight`); a positive
  contribution is never negative and exceeds zero exactly at a positive, because the threshold is below one, so the
  positives' sum exceeds zero exactly when the row has a positive (`rowKer_eq_rowRef`).

  The modules: Proof/Spec.lean states the loss with no program in sight; Proof/RowLaw.lean is the law above;
  Proof/Pieces.lean, Payload.lean, Blocks.lean, Accum.lean, Final.lean read the kernel's generated frame run as values
  (what a grid point stores, its arithmetic at an index, where its blocks sit in the arrays, the accumulators by
  induction over the points, the output array and the host's closing lines); Proof/HostPrefix.lean reads the host's
  lines before the region (the normalised arrays, the transpose, the reshaped labels); Proof/RefRun.lean and
  RefRead.lean are the reference's run and its operations read one at a time, and Proof/RefValue.lean composes them
  into the specification.
-/
import proofs.«178529_j10222022165007_2_alg».proof.Defs
import proofs.«178529_j10222022165007_2_alg».proof.Proof.Gen.Kernel
import proofs.«178529_j10222022165007_2_alg».proof.Proof.Gen.Kernel.Skeleton
import proofs.«178529_j10222022165007_2_alg».proof.Proof.Gen.Kernel.Launch
import proofs.«178529_j10222022165007_2_alg».proof.Proof.Gen.Kernel.Points
import proofs.«178529_j10222022165007_2_alg».proof.Proof.Gen.Kernel.Frame
import proofs.«178529_j10222022165007_2_alg».proof.Proof.Gen.KernelIdeal
import proofs.«178529_j10222022165007_2_alg».proof.Proof.Gen.KernelIdeal.Skeleton
import proofs.«178529_j10222022165007_2_alg».proof.Proof.Gen.KernelIdeal.Launch
import proofs.«178529_j10222022165007_2_alg».proof.Proof.Gen.KernelIdeal.Points
import proofs.«178529_j10222022165007_2_alg».proof.Proof.Gen.KernelIdeal.Frame
import proofs.«178529_j10222022165007_2_alg».proof.Proof.Gen.ReferenceIdeal
import proofs.«178529_j10222022165007_2_alg».proof.Proof.Gen.Pre_finite_inputs
import proofs.«178529_j10222022165007_2_alg».proof.Proof.RowLaw
import proofs.«178529_j10222022165007_2_alg».proof.Proof.Final
import proofs.«178529_j10222022165007_2_alg».proof.Proof.HostPrefix
import proofs.«178529_j10222022165007_2_alg».proof.Proof.RefRun
import proofs.«178529_j10222022165007_2_alg».proof.Proof.RefValue
import Idealize.ShloMosaic.Adequacy
import Idealize.ShloMosaic.Init

noncomputable section

namespace Cert.Proof

open scoped BigOperators
open Idealize.ShloMosaic Idealize.ShloMosaic.TcCoe Idealize.SL.Sem Idealize.ShloMosaic.ValueIdx
open Cert.Contrastive

/-! ## The region's operand arrays are the specification's -/

section Bridge
open Cert.KernelIdeal Cert.KernelIdeal.Gen Cert.KernelIdeal.Accum Cert.KernelIdeal.Prefix

variable (m : (ℓ : Loc nD τ sig) → Buf (Elt Ideal) ℓ) (c : Dev nD)

/-- The similarity the kernel's tiles compute is the inner product of the normalised rows. -/
theorem sK_eq : sK m c = simOf (normed (m ((c : Thread nD τ).loc main_arg0))) (normed (m ((c : Thread nD τ).loc main_arg2))) := by
  funext i j
  unfold sK simOf
  refine Finset.sum_congr rfl fun k _ => ?_
  have h8 : arrA m c (ix2 i k) = normed (m ((c : Thread nD τ).loc main_arg0)) (ix2 i k) := v8_apply m c i k
  have h18 : arrBt m c (ix2 k j) = normed (m ((c : Thread nD τ).loc main_arg2)) (ix2 j k) := v18_apply m c k j
  rw [h8, h18]

/-- The label agreement the kernel's tiles compute is the arguments'. -/
theorem eK_eq : eK m c = sameOf (m ((c : Thread nD τ).loc main_arg1)) (m ((c : Thread nD τ).loc main_arg3)) := by
  funext i j
  unfold eK sameOf
  have h19 : lblC m c (ix2 i 0) = m ((c : Thread nD τ).loc main_arg1) (ix1 i) := v19_apply m c i
  have h20 : lblR m c (ix2 0 j) = m ((c : Thread nD τ).loc main_arg3) (ix1 j) := v20_apply m c j
  rw [h19, h20]

end Bridge

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the mean of the row losses: the kernel's with
    each row's loss accumulated tile by tile (`Final.run`), the reference's with the two sums and the row's own gate
    (`ref_value`), equal row by row (`rowKer_eq_rowRef`). -/
theorem algebraic : Cert.algebraic_KernelIdeal_ReferenceIdeal := by
  intro m ρ m' ρ' _ hagree
  refine ⟨fun c => (fun _ => meanOf (rowKer (Cert.KernelIdeal.Accum.sK m c) (Cert.KernelIdeal.Accum.eK m c))),
    Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  have e : Cert.ReferenceIdeal.ValueP.res_main_v40 m' c
      = fun _ => meanOf (rowKer (Cert.KernelIdeal.Accum.sK m c) (Cert.KernelIdeal.Accum.eK m c)) := by
    rw [Cert.ReferenceIdeal.ReadP.val_main_v40_eq, Cert.ReferenceIdeal.RefValue.ref_value,
      (hagree c).1, (hagree c).2.1, (hagree c).2.2.1, (hagree c).2.2.2, sK_eq, eK_eq]
    funext _
    exact congrArg meanOf (funext fun i => (rowKer_eq_rowRef _ _ i).symm)
  exact e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
